-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x512x512 : Shape := ⟨3, ![3, 512, 512]⟩
abbrev S8388608x4 : Shape := ⟨2, ![8388608, 4]⟩
abbrev S8388608 : Shape := ⟨1, ![8388608]⟩
abbrev S_ : Shape := ⟨0, ![]⟩

class Facts : Prop where
  bcast_S_S3x512x512 : S_.BroadcastsInDim S3x512x512 (![] : Fin 0 → Fin S3x512x512.rank)
  reducesTo_S3x512x512_S_d0_1_2 : S3x512x512.ReducesTo [0, 1, 2] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S3x512x512 .f32) (main_arg1 : IVec S8388608x4 32) (main_arg2 : IVec S8388608 32) (main_arg3 : FVec F S8388608 .f32) : IVec S_ 1 :=
  let main_v0 : FVec F S3x512x512 .f32 := Host.absf main_arg0
  let main_cst : FVec F S_ .f32 := constant S_ .f32 0x7F800000#32
  let main_v1 : FVec F S3x512x512 .f32 := broadcastInDim S3x512x512 ![] bcast_S_S3x512x512 main_cst
  let main_v2 : IVec S3x512x512 1 := cmpf .olt main_v0 main_v1
  let main_c : IVec S_ 1 := constantI S_ 1 1#1
  let main_v3 : IVec S_ 1 := (fun x v => Host.reduce IntOp.andi x v reducesTo_S3x512x512_S_d0_1_2 h_S_) main_v2 main_c
  let main_v4 : FVec F S8388608 .f32 := Host.absf main_arg3
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  main_v8
-- ==== Kernel.lean ====
abbrev S3x512x512 : Shape := ⟨3, ![3, 512, 512]⟩
abbrev S8388608x4 : Shape := ⟨2, ![8388608, 4]⟩
abbrev S8388608 : Shape := ⟨1, ![8388608]⟩
abbrev S_ : Shape := ⟨0, ![]⟩
abbrev S512x512 : Shape := ⟨2, ![512, 512]⟩
abbrev S8388608x1 : Shape := ⟨2, ![8388608, 1]⟩
abbrev S8388608x2 : Shape := ⟨2, ![8388608, 2]⟩
abbrev S65536x128 : Shape := ⟨2, ![65536, 128]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩

abbrev nBuf : Space → Nat
  | .hbm => 70
  | .vmem => 9
  | .smem => 0
  | _ => 0

abbrev bufTy : (tb : Table) → Fin (tcTables nBuf tb) → BufTy
  | .hbm, ⟨0, _⟩ => ⟨S3x512x512, .f32⟩
  | .hbm, ⟨1, _⟩ => ⟨S8388608x4, .i32⟩
  | .hbm, ⟨2, _⟩ => ⟨S8388608, .i32⟩
  | .hbm, ⟨3, _⟩ => ⟨S8388608, .f32⟩
  | .hbm, ⟨4, _⟩ => ⟨S_, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S8388608x1, .i32⟩
  | .hbm, ⟨19, _⟩ => ⟨S8388608, .i32⟩
  | .hbm, ⟨20, _⟩ => ⟨S8388608x1, .i32⟩
  | .hbm, ⟨21, _⟩ => ⟨S8388608, .i32⟩
  | .hbm, ⟨22, _⟩ => ⟨S8388608x1, .i32⟩
  | .hbm, ⟨23, _⟩ => ⟨S8388608, .i32⟩
  | .hbm, ⟨24, _⟩ => ⟨S8388608x1, .i32⟩
  | .hbm, ⟨25, _⟩ => ⟨S8388608, .i32⟩
  | .hbm, ⟨26, _⟩ => ⟨S_, .i32⟩
  | .hbm, ⟨27, _⟩ => ⟨S8388608, .i32⟩
  | .hbm, ⟨28, _⟩ => ⟨S8388608, .i1⟩
  | .hbm, ⟨29, _⟩ => ⟨S_, .i32⟩
  | .hbm, ⟨30, _⟩ => ⟨S8388608, .i32⟩
  | .hbm, ⟨31, _⟩ => ⟨S8388608, .i32⟩
  | .hbm, ⟨32, _⟩ => ⟨S8388608, .i32⟩
  | .hbm, ⟨33, _⟩ => ⟨S_, .i32⟩
  | .hbm, ⟨34, _⟩ => ⟨S8388608, .i32⟩
  | .hbm, ⟨35, _⟩ => ⟨S8388608, .i1⟩
  | .hbm, ⟨36, _⟩ => ⟨S_, .i32⟩
  | .hbm, ⟨37, _⟩ => ⟨S8388608, .i32⟩
  | .hbm, ⟨38, _⟩ => ⟨S8388608, .i32⟩
  | .hbm, ⟨39, _⟩ => ⟨S8388608, .i32⟩
  | .hbm, ⟨40, _⟩ => ⟨S8388608x1, .i32⟩
  | .hbm, ⟨41, _⟩ => ⟨S8388608x1, .i32⟩
  | .hbm, ⟨42, _⟩ => ⟨S8388608x2, .i32⟩
  | .hbm, ⟨43, _⟩ => ⟨S8388608, .f32⟩
  | .hbm, ⟨44, _⟩ => ⟨S_, .i32⟩
  | .hbm, ⟨45, _⟩ => ⟨S8388608, .i32⟩
  | .hbm, ⟨46, _⟩ => ⟨S8388608, .i1⟩
  | .hbm, ⟨47, _⟩ => ⟨S_, .i32⟩
  | .hbm, ⟨48, _⟩ => ⟨S8388608, .i32⟩
  | .hbm, ⟨49, _⟩ => ⟨S8388608, .i32⟩
  | .hbm, ⟨50, _⟩ => ⟨S8388608, .i32⟩
  | .hbm, ⟨51, _⟩ => ⟨S_, .i32⟩
  | .hbm, ⟨52, _⟩ => ⟨S8388608, .i32⟩
  | .hbm, ⟨53, _⟩ => ⟨S8388608, .i1⟩
  | .hbm, ⟨54, _⟩ => ⟨S_, .i32⟩
  | .hbm, ⟨55, _⟩ => ⟨S8388608, .i32⟩
  | .hbm, ⟨56, _⟩ => ⟨S8388608, .i32⟩
  | .hbm, ⟨57, _⟩ => ⟨S8388608, .i32⟩
  | .hbm, ⟨58, _⟩ => ⟨S8388608x1, .i32⟩
  | .hbm, ⟨59, _⟩ => ⟨S8388608x1, .i32⟩
  | .hbm, ⟨60, _⟩ => ⟨S8388608x2, .i32⟩
  | .hbm, ⟨61, _⟩ => ⟨S8388608, .f32⟩
  | .hbm, ⟨62, _⟩ => ⟨S65536x128, .f32⟩
  | .hbm, ⟨63, _⟩ => ⟨S65536x128, .f32⟩
  | .hbm, ⟨64, _⟩ => ⟨S65536x128, .i32⟩
  | .hbm, ⟨65, _⟩ => ⟨S65536x128, .f32⟩
  | .hbm, ⟨66, _⟩ => ⟨S1x1, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .i32⟩
  | .local _ .vmem, ⟨5, _⟩ => ⟨S2048x128, .i32⟩
  | .local _ .vmem, ⟨6, _⟩ => ⟨S2048x128, .f32⟩
  | .local _ .vmem, ⟨7, _⟩ => ⟨S2048x128, .f32⟩
  | .local _ .vmem, ⟨8, _⟩ => ⟨S1x1, .f32⟩
  | _, _ => ⟨S3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S3x512x512_S512x512_d0 : S3x512x512.ReducesTo [0] S512x512
  h_S_ : 0 < S_.numel
  bcast_S_S512x512 : S_.BroadcastsInDim S512x512 (![] : Fin 0 → Fin S512x512.rank)
  slices_S8388608x4_S8388608x1_0_0 : S8388608x4.Slices ![0, 0] S8388608x1
  shapeCasts_S8388608x1_S8388608 : S8388608x1.ShapeCasts S8388608
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608_S65536x128 : S8388608.ShapeCasts S65536x128
  inb_S1x1_S1x1_0_0 : ∀ a, (![0, 0] : Fin 2 → Nat) a + S1x1.size a ≤ S1x1.size a
  h_S1x1 : 0 < S1x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  gather_S512x512_S8388608x2_S8388608_n_01_n_n_01_1_11_wf : GatherDims.WF S512x512 S8388608x2 S8388608 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .i32 = 32 ∨ (Rect.block (s := S65536x128) S2048x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S512x512_S8388608x2_S8388608_n_01_n_n_01_1_11 : GatherDims S512x512 S8388608x2 S8388608 where
  offsetDims := []
  collapsedSliceDims := [0, 1]
  operandBatchingDims := []
  startIndicesBatchingDims := []
  startIndexMap := [0, 1]
  indexVectorDim := 1
  sliceSizes := ![1, 1]
  wf := gather_S512x512_S8388608x2_S8388608_n_01_n_n_01_1_11_wf

abbrev win0_0 : Pipeline.Window sig grid0 :=
  Pipeline.Window.ofSpec (Memref.whole main_v45) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S3x512x512 : Shape := ⟨3, ![3, 512, 512]⟩
abbrev S8388608x4 : Shape := ⟨2, ![8388608, 4]⟩
abbrev S8388608 : Shape := ⟨1, ![8388608]⟩
abbrev S_ : Shape := ⟨0, ![]⟩
abbrev S512x512 : Shape := ⟨2, ![512, 512]⟩
abbrev S8388608x1 : Shape := ⟨2, ![8388608, 1]⟩
abbrev S8388608x2 : Shape := ⟨2, ![8388608, 2]⟩

abbrev nBuf : Space → Nat
  | .hbm => 136
  | .vmem => 0
  | .smem => 0
  | _ => 0

abbrev hbmTy0_0 (i : Nat) : BufTy := match i % 128 with
  | 0 => ⟨S3x512x512, .f32⟩
  | 1 => ⟨S8388608x4, .i32⟩
  | 2 => ⟨S8388608, .i32⟩
  | 3 => ⟨S8388608, .f32⟩
  | 4 => ⟨S_, .f32⟩
  | 5 => ⟨S512x512, .f32⟩
  | 6 => ⟨S_, .f32⟩
  | 7 => ⟨S512x512, .f32⟩
  | 8 => ⟨S512x512, .f32⟩
  | 9 => ⟨S_, .f32⟩
  | 10 => ⟨S512x512, .f32⟩
  | 11 => ⟨S512x512, .f32⟩
  | 12 => ⟨S_, .f32⟩
  | 13 => ⟨S512x512, .f32⟩
  | 14 => ⟨S512x512, .f32⟩
  | 15 => ⟨S_, .f32⟩
  | 16 => ⟨S512x512, .f32⟩
  | 17 => ⟨S512x512, .f32⟩
  | 18 => ⟨S8388608x1, .i32⟩
  | 19 => ⟨S8388608, .i32⟩
  | 20 => ⟨S8388608x1, .i32⟩
  | 21 => ⟨S8388608, .i32⟩
  | 22 => ⟨S8388608x1, .i32⟩
  | 23 => ⟨S8388608, .i32⟩
  | 24 => ⟨S8388608x1, .i32⟩
  | 25 => ⟨S8388608, .i32⟩
  | 26 => ⟨S_, .i32⟩
  | 27 => ⟨S8388608, .i32⟩
  | 28 => ⟨S8388608, .i1⟩
  | 29 => ⟨S_, .i32⟩
  | 30 => ⟨S8388608, .i32⟩
  | 31 => ⟨S8388608, .i32⟩
  | 32 => ⟨S8388608, .i32⟩
  | 33 => ⟨S_, .i32⟩
  | 34 => ⟨S8388608, .i32⟩
  | 35 => ⟨S8388608, .i1⟩
  | 36 => ⟨S_, .i32⟩
  | 37 => ⟨S8388608, .i32⟩
  | 38 => ⟨S8388608, .i32⟩
  | 39 => ⟨S8388608, .i32⟩
  | 40 => ⟨S8388608x1, .i32⟩
  | 41 => ⟨S8388608x1, .i32⟩
  | 42 => ⟨S8388608x2, .i32⟩
  | 43 => ⟨S8388608, .f32⟩
  | 44 => ⟨S_, .i32⟩
  | 45 => ⟨S8388608, .i32⟩
  | 46 => ⟨S8388608, .i1⟩
  | 47 => ⟨S_, .i32⟩
  | 48 => ⟨S8388608, .i32⟩
  | 49 => ⟨S8388608, .i32⟩
  | 50 => ⟨S8388608, .i32⟩
  | 51 => ⟨S_, .i32⟩
  | 52 => ⟨S8388608, .i32⟩
  | 53 => ⟨S8388608, .i1⟩
  | 54 => ⟨S_, .i32⟩
  | 55 => ⟨S8388608, .i32⟩
  | 56 => ⟨S8388608, .i32⟩
  | 57 => ⟨S8388608, .i32⟩
  | 58 => ⟨S8388608x1, .i32⟩
  | 59 => ⟨S8388608x1, .i32⟩
  | 60 => ⟨S8388608x2, .i32⟩
  | 61 => ⟨S8388608, .f32⟩
  | 62 => ⟨S_, .f32⟩
  | 63 => ⟨S8388608, .f32⟩
  | 64 => ⟨S8388608, .f32⟩
  | 65 => ⟨S8388608, .f32⟩
  | 66 => ⟨S_, .f32⟩
  | 67 => ⟨S8388608, .f32⟩
  | 68 => ⟨S8388608, .f32⟩
  | 69 => ⟨S8388608, .f32⟩
  | 70 => ⟨S_, .f32⟩
  | 71 => ⟨S8388608, .f32⟩
  | 72 => ⟨S8388608, .i1⟩
  | 73 => ⟨S_, .f32⟩
  | 74 => ⟨S8388608, .f32⟩
  | 75 => ⟨S8388608, .f32⟩
  | 76 => ⟨S_, .f32⟩
  | 77 => ⟨S8388608, .f32⟩
  | 78 => ⟨S8388608, .f32⟩
  | 79 => ⟨S8388608, .f32⟩
  | 80 => ⟨S_, .f32⟩
  | 81 => ⟨S_, .f32⟩
  | 82 => ⟨S8388608, .f32⟩
  | 83 => ⟨S8388608, .f32⟩
  | 84 => ⟨S_, .f32⟩
  | 85 => ⟨S8388608, .f32⟩
  | 86 => ⟨S8388608, .i1⟩
  | 87 => ⟨S_, .f32⟩
  | 88 => ⟨S8388608, .f32⟩
  | 89 => ⟨S8388608, .f32⟩
  | 90 => ⟨S_, .f32⟩
  | 91 => ⟨S8388608, .f32⟩
  | 92 => ⟨S8388608, .f32⟩
  | 93 => ⟨S8388608, .f32⟩
  | 94 => ⟨S_, .f32⟩
  | 95 => ⟨S_, .f32⟩
  | 96 => ⟨S8388608, .f32⟩
  | 97 => ⟨S8388608, .f32⟩
  | 98 => ⟨S_, .f32⟩
  | 99 => ⟨S8388608, .f32⟩
  | 100 => ⟨S8388608, .i1⟩
  | 101 => ⟨S_, .f32⟩
  | 102 => ⟨S8388608, .f32⟩
  | 103 => ⟨S8388608, .f32⟩
  | 104 => ⟨S_, .f32⟩
  | 105 => ⟨S8388608, .f32⟩
  | 106 => ⟨S8388608, .f32⟩
  | 107 => ⟨S8388608, .f32⟩
  | 108 => ⟨S_, .f32⟩
  | 109 => ⟨S8388608, .f32⟩
  | 110 => ⟨S8388608, .i1⟩
  | 111 => ⟨S_, .f32⟩
  | 112 => ⟨S8388608, .f32⟩
  | 113 => ⟨S8388608, .f32⟩
  | 114 => ⟨S_, .f32⟩
  | 115 => ⟨S8388608, .f32⟩
  | 116 => ⟨S8388608, .f32⟩
  | 117 => ⟨S8388608, .f32⟩
  | 118 => ⟨S_, .f32⟩
  | 119 => ⟨S_, .f32⟩
  | 120 => ⟨S8388608, .f32⟩
  | 121 => ⟨S8388608, .f32⟩
  | 122 => ⟨S8388608, .f32⟩
  | 123 => ⟨S_, .i32⟩
  | 124 => ⟨S8388608, .i32⟩
  | 125 => ⟨S8388608, .i1⟩
  | 126 => ⟨S_, .i32⟩
  | 127 => ⟨S8388608, .i32⟩
  | _ => ⟨S3x512x512, .f32⟩

abbrev hbmTy0_1 (i : Nat) : BufTy := match i % 128 with
  | 0 => ⟨S8388608, .i1⟩
  | 1 => ⟨S8388608, .f32⟩
  | 2 => ⟨S8388608, .f32⟩
  | 3 => ⟨S8388608, .f32⟩
  | 4 => ⟨S_, .f32⟩
  | 5 => ⟨S_, .f32⟩
  | 6 => ⟨S_, .f32⟩
  | 7 => ⟨S_, .f32⟩
  | _ => ⟨S3x512x512, .f32⟩

abbrev hbmTy (i : Nat) : BufTy := match i / 128 with
  | 0 => hbmTy0_0 i
  | 1 => hbmTy0_1 i
  | _ => ⟨S3x512x512, .f32⟩

abbrev bufTy : (tb : Table) → Fin (tcTables nBuf tb) → BufTy
  | .hbm, ⟨i, _⟩ => hbmTy i
  | _, _ => ⟨S3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_call0_v0 : Ref sig .tc := ⟨.hbm, 81, rfl⟩
abbrev main_call0_v1 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_20 : Ref sig .tc := ⟨.hbm, 94, rfl⟩
abbrev main_call1_v0 : Ref sig .tc := ⟨.hbm, 95, rfl⟩
abbrev main_call1_v1 : Ref sig .tc := ⟨.hbm, 96, rfl⟩
abbrev main_v66 : Ref sig .tc := ⟨.hbm, 97, rfl⟩
abbrev main_cst_21 : Ref sig .tc := ⟨.hbm, 98, rfl⟩
abbrev main_v67 : Ref sig .tc := ⟨.hbm, 99, rfl⟩
abbrev main_v68 : Ref sig .tc := ⟨.hbm, 100, rfl⟩
abbrev main_cst_22 : Ref sig .tc := ⟨.hbm, 101, rfl⟩
abbrev main_v69 : Ref sig .tc := ⟨.hbm, 102, rfl⟩
abbrev main_v70 : Ref sig .tc := ⟨.hbm, 103, rfl⟩
abbrev main_cst_23 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_24 : Ref sig .tc := ⟨.hbm, 108, rfl⟩
abbrev main_v74 : Ref sig .tc := ⟨.hbm, 109, rfl⟩
abbrev main_v75 : Ref sig .tc := ⟨.hbm, 110, rfl⟩
abbrev main_cst_25 : Ref sig .tc := ⟨.hbm, 111, rfl⟩
abbrev main_v76 : Ref sig .tc := ⟨.hbm, 112, rfl⟩
abbrev main_v77 : Ref sig .tc := ⟨.hbm, 113, rfl⟩
abbrev main_cst_26 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_27 : Ref sig .tc := ⟨.hbm, 118, rfl⟩
abbrev main_call2_v0 : Ref sig .tc := ⟨.hbm, 119, rfl⟩
abbrev main_call2_v1 : Ref sig .tc := ⟨.hbm, 120, rfl⟩
abbrev main_v81 : Ref sig .tc := ⟨.hbm, 121, rfl⟩
abbrev main_v82 : Ref sig .tc := ⟨.hbm, 122, rfl⟩
abbrev main_c_28 : Ref sig .tc := ⟨.hbm, 123, rfl⟩
abbrev main_v83 : Ref sig .tc := ⟨.hbm, 124, rfl⟩
abbrev main_v84 : Ref sig .tc := ⟨.hbm, 125, rfl⟩
abbrev main_c_29 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_30 : Ref sig .tc := ⟨.hbm, 132, rfl⟩
abbrev main_v90 : Ref sig .tc := ⟨.hbm, 133, rfl⟩
abbrev main_cst_31 : Ref sig .tc := ⟨.hbm, 134, rfl⟩
abbrev main_v91 : Ref sig .tc := ⟨.hbm, 135, rfl⟩

abbrev nD : Nat := 1
abbrev τ : Topo := Topo.v7x

variable {F : FTy → Type} [FloatOps F]

class Facts₀ : Prop where
  reducesTo_S3x512x512_S512x512_d0 : S3x512x512.ReducesTo [0] S512x512
  h_S_ : 0 < S_.numel
  bcast_S_S512x512 : S_.BroadcastsInDim S512x512 (![] : Fin 0 → Fin S512x512.rank)
  slices_S8388608x4_S8388608x1_0_0 : S8388608x4.Slices ![0, 0] S8388608x1
  shapeCasts_S8388608x1_S8388608 : S8388608x1.ShapeCasts S8388608
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  reducesTo_S8388608_S_d0 : S8388608.ReducesTo [0] S_
  gather_S512x512_S8388608x2_S8388608_n_01_n_n_01_1_11_wf : GatherDims.WF S512x512 S8388608x2 S8388608 [] [0, 1] [] [0, 1] [] 1 ![1, 1]

variable [Facts₀]

def gather_S512x512_S8388608x2_S8388608_n_01_n_n_01_1_11 : GatherDims S512x512 S8388608x2 S8388608 where
  offsetDims := []
  collapsedSliceDims := [0, 1]
  operandBatchingDims := []
  startIndicesBatchingDims := []
  startIndexMap := [0, 1]
  indexVectorDim := 1
  sliceSizes := ![1, 1]
  wf := gather_S512x512_S8388608x2_S8388608_n_01_n_n_01_1_11_wf

class Facts : Prop extends Facts₀ where

variable [Facts]
-- ==== Proof.PairLoss.lean ====
/-
  The loss of ONE comparison pair, as both programs compute it, element by element: from the two gathered
  intensities `r1`, `r2`, the label `d` and the weight `w`,
    ratio = r1 / (r2 + ε),  inverse = r2 / (r1 + ε),
    d = 1:  ratio > 1/b ? (ratio − 1/b) + (b − inverse) : 0
    d = 2:  ratio < b   ? (b − ratio) + (inverse − 1/b) : 0
    else :  ratio > β ? (ratio − β) + (1/β − inverse) : (ratio < 1/β ? (1/β − ratio) + (inverse − β) : 0)
  times `w`; the five constants are the same f32 words in the kernel and in the reference, so they are kept as
  words and never evaluated. Stated over any float instance.
-/
import Idealize.ShloMosaic.PureOps.Ideal

noncomputable section

namespace Cert.Hinge

open Idealize.ShloMosaic

variable {F : FTy → Type} [FloatOps F]

/-- `r1 / (r2 + ε)`. -/
def ratio (r1 r2 : F .f32) : F .f32 := FloatOps.divf r1 (FloatOps.addf r2 (FloatOps.ofBits .f32 0x2EDBE6FF#32))

/-- The branch for label 1. -/
def lossDarker1 (r1 r2 : F .f32) : F .f32 :=
  Scalar.select (FloatOps.cmpf .ogt (ratio r1 r2) (FloatOps.ofBits .f32 0x3F5E9BD3#32))
    (FloatOps.addf (FloatOps.subf (ratio r1 r2) (FloatOps.ofBits .f32 0x3F5E9BD3#32))
      (FloatOps.subf (FloatOps.ofBits .f32 0x3F933333#32) (ratio r2 r1)))
    (FloatOps.ofBits .f32 0x00000000#32)

/-- The branch for label 2. -/
def lossDarker2 (r1 r2 : F .f32) : F .f32 :=
  Scalar.select (FloatOps.cmpf .olt (ratio r1 r2) (FloatOps.ofBits .f32 0x3F933333#32))
    (FloatOps.addf (FloatOps.subf (FloatOps.ofBits .f32 0x3F933333#32) (ratio r1 r2))
      (FloatOps.subf (ratio r2 r1) (FloatOps.ofBits .f32 0x3F5E9BD3#32)))
    (FloatOps.ofBits .f32 0x00000000#32)

/-- The two-sided branch for every other label. -/
def lossEqual (r1 r2 : F .f32) : F .f32 :=
  Scalar.select (FloatOps.cmpf .ogt (ratio r1 r2) (FloatOps.ofBits .f32 0x3F866666#32))
    (FloatOps.addf (FloatOps.subf (ratio r1 r2) (FloatOps.ofBits .f32 0x3F866666#32))
      (FloatOps.subf (FloatOps.ofBits .f32 0x3F73CF3D#32) (ratio r2 r1)))
    (Scalar.select (FloatOps.cmpf .olt (ratio r1 r2) (FloatOps.ofBits .f32 0x3F73CF3D#32))
      (FloatOps.addf (FloatOps.subf (FloatOps.ofBits .f32 0x3F73CF3D#32) (ratio r1 r2))
        (FloatOps.subf (ratio r2 r1) (FloatOps.ofBits .f32 0x3F866666#32)))
      (FloatOps.ofBits .f32 0x00000000#32))

/-- The weighted loss of one pair. -/
def pairLoss (r1 r2 : F .f32) (d : BitVec 32) (w : F .f32) : F .f32 :=
  FloatOps.mulf w
    (Scalar.select (IntOp.cmpi .eq d 1#32) (lossDarker1 r1 r2)
      (Scalar.select (IntOp.cmpi .eq d 2#32) (lossDarker2 r1 r2) (lossEqual r1 r2)))

end Cert.Hinge

end
-- ==== Proof.BlockSum.lean ====
/-
  The two reductions a grid point applies to its [2048, 128] block of weighted losses, read over the extended
  reals: the sum over the 128 lanes of each row (kept as a [2048, 1] column), then the sum of the 2048 rows
  into one [1, 1] entry, is the double sum over rows and lanes of the block.
-/
import Idealize.ShloMosaic.Lib.Pipeline.Value
import Idealize.ShloMosaic.Lib.ValueIdx
import Idealize.ShloMosaic.PureOps.Ideal.Laws

noncomputable section

open scoped BigOperators

namespace Cert.Hinge

open Idealize.ShloMosaic Idealize.ShloMosaic.ValueIdx

/-- Row `r` of the lane sums is the sum over the lanes of row `r`. -/
theorem lane_sum (src : FVec Ideal ⟨2, ![2048, 128]⟩ .f32)
    (h1 : (⟨2, ![2048, 128]⟩ : Shape).Reduces [1] ⟨1, ![2048]⟩) (hφ : FKind.Formats .f32)
    (ha : (0x00000000#32 : BitVec 32) = FKind.add.neutral .f32 hφ) (r : Fin 2048) :
    multiReduction .add [1] ⟨1, ![2048]⟩ src 0x00000000#32 h1 hφ ha (ix1 r) = ∑ l : Fin 128, src (ix2 r l) := by
  refine (Ideal.multiReduction_add_single src 0x00000000#32 h1 hφ ha (ix1 r)).trans ?_
  show ∑ l : Fin 128, src (h1.lift (ix1 r) l) = _
  refine Finset.sum_congr rfl fun l _ => congrArg src (funext fun a => Fin.ext ?_)
  match a with
  | ⟨0, _⟩ => rfl
  | ⟨1, _⟩ => rfl

/-- The one entry of the row sums is the sum over the rows of the column. -/
theorem row_sum (col : FVec Ideal ⟨2, ![2048, 1]⟩ .f32)
    (h2 : (⟨2, ![2048, 1]⟩ : Shape).Reduces [0] ⟨1, ![1]⟩) (hφ : FKind.Formats .f32)
    (ha : (0x00000000#32 : BitVec 32) = FKind.add.neutral .f32 hφ) (u : Fin 1) :
    multiReduction .add [0] ⟨1, ![1]⟩ col 0x00000000#32 h2 hφ ha (ix1 u) = ∑ r : Fin 2048, col (ix2 r u) := by
  refine (Ideal.multiReduction_add_single col 0x00000000#32 h2 hφ ha (ix1 u)).trans ?_
  show ∑ r : Fin 2048, col (h2.lift (ix1 u) r) = _
  refine Finset.sum_congr rfl fun r _ => congrArg col (funext fun a => Fin.ext ?_)
  match a with
  | ⟨0, _⟩ => rfl
  | ⟨1, _⟩ => rfl

/-- A grid point's partial sum: lanes, then rows, of its block. -/
theorem block_sum (src : FVec Ideal ⟨2, ![2048, 128]⟩ .f32)
    (h1 : (⟨2, ![2048, 128]⟩ : Shape).Reduces [1] ⟨1, ![2048]⟩) (hφ1 : FKind.Formats .f32)
    (ha1 : (0x00000000#32 : BitVec 32) = FKind.add.neutral .f32 hφ1)
    (hc1 : (⟨1, ![2048]⟩ : Shape).ShapeCasts ⟨2, ![2048, 1]⟩)
    (h2 : (⟨2, ![2048, 1]⟩ : Shape).Reduces [0] ⟨1, ![1]⟩) (hφ2 : FKind.Formats .f32)
    (ha2 : (0x00000000#32 : BitVec 32) = FKind.add.neutral .f32 hφ2)
    (hc2 : (⟨1, ![1]⟩ : Shape).ShapeCasts ⟨2, ![1, 1]⟩) (j : (⟨2, ![1, 1]⟩ : Shape).Idx) :
    shapeCast ⟨2, ![1, 1]⟩ (multiReduction .add [0] ⟨1, ![1]⟩
        (shapeCast ⟨2, ![2048, 1]⟩ (multiReduction .add [1] ⟨1, ![2048]⟩ src 0x00000000#32 h1 hφ1 ha1) hc1)
        0x00000000#32 h2 hφ2 ha2) hc2 j
      = ∑ r : Fin 2048, ∑ l : Fin 128, src (ix2 r l) := by
  have hj0 : (j 0).val = 0 := by have := (j 0).isLt; simp at this; omega
  have hj1 : (j 1).val = 0 := by have := (j 1).isLt; simp at this; omega
  rw [shapeCast_apply _ hc2 j (ix1 (0 : Fin 1)) (by
    rw [Shape.rowMajor_val_one, Shape.rowMajor_val_two, hj0, hj1]; rfl)]
  rw [row_sum]
  refine Finset.sum_congr rfl fun r _ => ?_
  rw [shapeCast_apply _ hc1 (ix2 r (0 : Fin 1)) (ix1 r) (by
    rw [Shape.rowMajor_val_one, Shape.rowMajor_val_two]; show r.val = r.val * 1 + 0; omega)]
  exact lane_sum src h1 hφ1 ha1 r

end Cert.Hinge

end
-- ==== Proof.KernelBody.lean ====
/-
  What one grid point of the kernel leaves in its [1, 1] accumulator, read as a value. The body loads the
  point's four [2048, 128] blocks (gathered intensities `x0`, `x1`, labels `x2`, weights `x3`), forms the
  weighted pair loss of every entry, sums the lanes of each row, sums the rows, and stores the accumulator
  plus that partial sum; at the first point the accumulator it adds to is the zero it has just stored.
  Over the extended reals the stored entry is the accumulator's plus the double sum over rows and lanes of
  the entries' pair losses.
-/
import proofs.«124489_j15994458211239_1_alg».proof.Proof.Gen.KernelIdeal.Frame
import proofs.«124489_j15994458211239_1_alg».proof.Proof.PairLoss
import proofs.«124489_j15994458211239_1_alg».proof.Proof.BlockSum
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.Hinge

variable {F : FTy → Type} [FloatOps F]

theorem hz : (![0, 0] : Fin 2 → Nat) = fun _ => 0 := funext fun a => by fin_cases a <;> rfl

/-- The entry the body stores, from the four blocks it loads and the accumulator it reads. -/
def stored (x0 x1 : Vec F S2048x128 .f32) (x2 : Vec F S2048x128 .i32) (x3 : Vec F S2048x128 .f32)
    (acc : Vec F S1x1 .f32) : Vec F S1x1 .f32 :=
  k0_pay1 (k0_pay5 x3) (k0_pay6 x2) (k0_pay7 x0 x1) (k0_pay8 x0 x1) (k0_pay9 x0 x1) (k0_pay10 x0 x1) (k0_pay11 x0 x1) acc

/-- The zero entry the first point stores before it accumulates. -/
abbrev zeroAcc : Vec F S1x1 .f32 := k0_pay2

/-- A later point: the accumulator holds `acc`; the body leaves `stored … acc`. -/
theorem out_B (c : Dev nD) (i : grid0.Coords) (a1 : Memref sig .tc .vmem S2048x128 .f32) (h1 : a1.IsWhole)
    (a2 : Memref sig .tc .vmem S2048x128 .f32) (h2 : a2.IsWhole) (a3 : Memref sig .tc .vmem S2048x128 .i32) (h3 : a3.IsWhole)
    (a4 : Memref sig .tc .vmem S2048x128 .f32) (h4 : a4.IsWhole) (a5 : Memref sig .tc .vmem S1x1 .f32) (h5 : a5.IsWhole)
    (hc : ¬cond0_0 i) (x0 x1 : Vec F S2048x128 .f32) (x2 : Vec F S2048x128 .i32) (x3 : Vec F S2048x128 .f32)
    (acc : Vec F S1x1 .f32) :
    out0_B_4 c i a1 h1 a2 h2 a3 h3 a4 h4 a5 h5 hc x0 x1 x2 x3 acc = stored x0 x1 x2 x3 acc := by
  unfold out0_B_4
  rw [View.read_writes_eq_canon _ _ _ (cover0_B_4 c i a1 h1 a2 h2 a3 h3 a4 h4 a5 h5 hc x0 x1 x2 x3 acc)]
  unfold kernelRun0_B
  dsimp only
  sl_unfold_words
  rw [View.canon_unit_zero hz]
  simp only [View.readAt_eq_ld, h1.read_unread, h2.read_unread, h3.read_unread, h4.read_unread, h5.read_unread,
    View.ld_unit_zero (S := S2048x128) hz, View.ld_unit_zero (S := S1x1) hz]
  rfl

/-- The first point: the body stores the zero entry, reads it back, and leaves `stored … zero`. -/
theorem out_A (c : Dev nD) (i : grid0.Coords) (a1 : Memref sig .tc .vmem S2048x128 .f32) (h1 : a1.IsWhole)
    (a2 : Memref sig .tc .vmem S2048x128 .f32) (h2 : a2.IsWhole) (a3 : Memref sig .tc .vmem S2048x128 .i32) (h3 : a3.IsWhole)
    (a4 : Memref sig .tc .vmem S2048x128 .f32) (h4 : a4.IsWhole) (a5 : Memref sig .tc .vmem S1x1 .f32) (h5 : a5.IsWhole)
    (hc : cond0_0 i) (x0 x1 : Vec F S2048x128 .f32) (x2 : Vec F S2048x128 .i32) (x3 : Vec F S2048x128 .f32) :
    out0_A_4 c i a1 h1 a2 h2 a3 h3 a4 h4 a5 h5 hc x0 x1 x2 x3 = stored x0 x1 x2 x3 zeroAcc := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S2048x128) hz]
  rfl

/-! ## The stored entry over the extended reals -/

/-- Every entry's ratio of the first intensity to the second plus ε. -/
theorem ratio12 (x0 x1 : Vec F S2048x128 .f32) : k0_pay7 x0 x1 = fun i => ratio (x0 i) (x1 i) := by
  unfold k0_pay7 k0_pay3 k0_pay4
  simp only [shapeCast_self]
  rfl

/-- Every entry's ratio of the second intensity to the first plus ε. -/
theorem ratio21 (x0 x1 : Vec F S2048x128 .f32) : k0_pay8 x0 x1 = fun i => ratio (x1 i) (x0 i) := by
  unfold k0_pay8 k0_pay3 k0_pay4
  simp only [shapeCast_self]
  rfl

/-- The block of weighted pair losses the two reductions sum. -/
def weighted (x0 x1 : Vec F S2048x128 .f32) (x2 : Vec F S2048x128 .i32) (x3 : Vec F S2048x128 .f32) : FVec F S2048x128 .f32 :=
  fun i => pairLoss (x0 i) (x1 i) (x2 i) (x3 i)

/-- The body's elementwise part is the pair loss of every entry. -/
theorem stored_eq (x0 x1 : Vec F S2048x128 .f32) (x2 : Vec F S2048x128 .i32) (x3 : Vec F S2048x128 .f32)
    (acc : Vec F S1x1 .f32) :
    stored x0 x1 x2 x3 acc
      = addf (shapeCast S1x1 acc shapeCasts_S1x1_S1x1)
          (shapeCast S1x1 (multiReduction .add [0] S1
            (shapeCast S2048x1 (multiReduction .add [1] S2048 (weighted x0 x1 x2 x3) 0x00000000#32 reduces_S2048x128_S2048 (.inl rfl) rfl)
              shapeCasts_S2048_S2048x1) 0x00000000#32 reduces_S2048x1_S1 (.inl rfl) rfl) shapeCasts_S1_S1x1) := by
  unfold stored k0_pay1 k0_pay9 k0_pay10 k0_pay11 k0_pay5 k0_pay6
  simp only [ratio12, ratio21, shapeCast_self]
  rfl

/-- A block's partial sum: the pair losses of its entries, summed over rows and lanes. -/
def blockLoss (x0 x1 : FVec Ideal S2048x128 .f32) (x2 : IVec S2048x128 32) (x3 : FVec Ideal S2048x128 .f32) : EReal :=
  ∑ r : Fin 2048, ∑ l : Fin 128, pairLoss (F := Ideal) (x0 (ix2 r l)) (x1 (ix2 r l)) (x2 (ix2 r l)) (x3 (ix2 r l))

/-- Over the extended reals: the accumulator's entry plus the block's partial sum. -/
theorem stored_apply (x0 x1 : FVec Ideal S2048x128 .f32) (x2 : IVec S2048x128 32) (x3 : FVec Ideal S2048x128 .f32)
    (acc : FVec Ideal S1x1 .f32) (j : S1x1.Idx) :
    stored (F := Ideal) x0 x1 x2 x3 acc j = acc j + blockLoss x0 x1 x2 x3 := by
  rw [stored_eq]
  show shapeCast S1x1 acc shapeCasts_S1x1_S1x1 j + _ = _
  rw [shapeCast_self]
  exact congrArg (acc j + ·) (block_sum (weighted (F := Ideal) x0 x1 x2 x3) _ _ _ _ _ _ _ _ j)

end Cert.KernelIdeal.Body

end
-- ==== Proof.KernelValue.lean ====
/-
  The kernel's accumulator over the grid, and the array it ends in. After grid point `n` the [1, 1]
  accumulator holds the zero it was reset to at point 0 plus the partial sums of points `0 … n` (induction
  on the point: the first point stores zero and adds its partial sum, every later point adds its own to what
  the point before left). The accumulator's block never moves and is written back after the last point
  only, so the result array ends holding zero plus the partial sums of all 32 points.
-/
import proofs.«124489_j15994458211239_1_alg».proof.Proof.KernelBody
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Sum

open Cert.KernelIdeal Cert.KernelIdeal.Gen Cert.Hinge Cert.KernelIdeal.Body

variable (m : (ℓ : Loc nD τ sig) → Buf (Elt Ideal) ℓ) (ρ : Dev nD → PrngReg)

/-- Grid point `k`'s partial sum, from its four blocks (nothing past the grid). -/
def part (c : Dev nD) (k : ℕ) : EReal :=
  if h : k < cfg0.N then blockLoss (iblk m c 0 ⟨k, h⟩) (iblk m c 1 ⟨k, h⟩) (iblk m c 2 ⟨k, h⟩) (iblk m c 3 ⟨k, h⟩) else 0

/-- After point `n` the accumulator's entry is zero plus the partial sums of points `0 … n`. -/
theorem outsAt_eq (c : Dev nD) : ∀ (n : ℕ) (h : n < cfg0.N) (j : S1x1.Idx),
    outsAt0 m c n h j = Ideal.ofBits .f32 0x00000000#32 + ∑ k ∈ Finset.range (n + 1), part m c k
  | 0, h, j => by
    have e : outsAt0 m c 0 h = stored (iblk m c 0 ⟨0, h⟩) (iblk m c 1 ⟨0, h⟩) (iblk m c 2 ⟨0, h⟩) (iblk m c 3 ⟨0, h⟩) zeroAcc :=
      (outsAt0_A m c ⟨0, h⟩ rfl).trans (out_A ..)
    rw [e, stored_apply, Finset.sum_range_one]
    unfold part
    rw [dif_pos h]
    rfl
  | n + 1, h, j => by
    have hN : cfg0.N = 32 := N_0
    have hB : ¬(⟨n + 1, h⟩ : Fin cfg0.N).val % 32 = 0 := by dsimp only; omega
    have e : outsAt0 m c (n + 1) h = stored (iblk m c 0 ⟨n + 1, h⟩) (iblk m c 1 ⟨n + 1, h⟩) (iblk m c 2 ⟨n + 1, h⟩) (iblk m c 3 ⟨n + 1, h⟩)
        (outsAt0 m c n (Nat.lt_of_succ_lt h)) :=
      (outsAt0_B m c ⟨n + 1, h⟩ hB).trans (out_B ..)
    rw [e, stored_apply, outsAt_eq c n (Nat.lt_of_succ_lt h) j, Finset.sum_range_succ _ (n + 1), add_assoc]
    unfold part
    rw [dif_pos h]

/-- What the result array ends holding: zero plus all 32 partial sums, at its one entry. -/
def result (c : Dev nD) : Buf (Elt Ideal) ((c : Thread nD τ).loc main_v49) :=
  fun _ => Ideal.ofBits .f32 0x00000000#32 + ∑ k ∈ Finset.range 32, part m c k

/-- The accumulator's block is block (0, 0) at every point, of extent [1, 1]. -/
theorem idx4 : ∀ t : Fin cfg0.N, ∀ a : Fin 2, win0_4.index t a = 0 :=
  (by decide +kernel : ∀ t : Fin grid0.N, ∀ a : Fin 2, win0_4.index t a = 0)

/-- The one write-back, after the last point, writes the final accumulator: its block is the whole array. -/
theorem flushed_eq (c : Dev nD) (t : Fin cfg0.N) (hf : (cfg0.win 4).flush t = true) :
    (dats m 0 c).flushed 4 t = ((cfg0.win 4).blk t).view.read (Elt Ideal) (result m c) := by
  have hN : cfg0.N = 32 := N_0
  have h31 : t.val = 31 := by have := (flush0_4 t).mp hf; have := t.isLt; omega
  show (cfg0.win 4).cut (grid0.coords t) ((dats m 0 c).after 4 t) = _
  rw [after0_4]
  have e : outsAt0 m c t.val t.isLt = result m c := funext fun j => (outsAt_eq m c t.val t.isLt j).trans (by rw [h31]; rfl)
  rw [e]
  have hz' : (fun a => win0_4.index t a * main_v49.ty.shape.size a) = fun _ => 0 :=
    funext fun a => by rw [idx4 t a, Nat.zero_mul]
  exact (Memref.read_access_unit_zero (Elt Ideal) main_v49 hz' (fun a => by rw [congrFun hz' a]; simp) (result m c)).symm

/-- The accumulator's block has extent 1 on both axes at every point. -/
theorem xs4 : ∀ t : Fin cfg0.N, ∀ a : Fin 2, win0_4.xsize (grid0.coords t) a = 1 :=
  (by decide +kernel : ∀ t : Fin grid0.N, ∀ a : Fin 2, win0_4.xsize (grid0.coords t) a = 1)

/-- The last grid point. -/
def tLast : Fin cfg0.N := ⟨31, by rw [show cfg0.N = 32 from N_0]; decide⟩

/-- So the result array ends holding zero plus all the partial sums: the last point's write-back covers it. -/
theorem final (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v49).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [idx4 tLast 0, xs4 tLast 0]; omega
      | ⟨1, _⟩ =>
        show win0_4.index tLast 1 * win0_4.size 1 ≤ (i 1 : Nat) ∧ (i 1 : Nat) < win0_4.index tLast 1 * win0_4.size 1 + win0_4.xsize (grid0.coords tLast) 1
        rw [idx4 tLast 1, xs4 tLast 1]; omega⟩

/-! ## The host lines after the region -/

/-- The two host lines after the region: the [1, 1] result viewed as a scalar, divided by the pair count. -/
theorem ops_tail {F : FTy → Type} [FloatOps F] (W : Valuation τ sig (Elt F)) :
    StableHlo.after (hostOps1 (F := F)) W (main_v51 : DevRef τ sig)
      = Host.divf (shapeCast S_ (W (main_v49 : DevRef τ sig)) shapeCasts_S1x1_S_) (constant S_ .f32 0x4B000000#32) := by
  after_results
  rfl

/-- The kernel's result: the final accumulator over the pair count. -/
def out (c : Dev nD) : Buf (Elt Ideal) ((c : Thread nD τ).loc main_v51) :=
  Host.divf (F := Ideal) (shapeCast S_ (result m c) shapeCasts_S1x1_S_) (constant (F := Ideal) S_ .f32 0x4B000000#32)

/-- What the lines after the region leave in the result buffer. -/
theorem tail_eq (c : Dev nD) :
    Pipeline.afterTail₀ cfgs (dats m) 0 (V0 m) [hostOps1] c main_v51 = out m c := by
  unfold Pipeline.afterTail₀
  rw [show List.flatten [hostOps1 (F := Ideal)] = hostOps1 from by
    simp only [List.flatten_cons, List.flatten_nil, List.append_nil]]
  refine (ops_tail (F := Ideal) _).trans ?_
  unfold out
  rw [← final m c]
  exact congrArg (fun x => Host.divf (F := Ideal) (shapeCast S_ x shapeCasts_S1x1_S_) (constant (F := Ideal) S_ .f32 0x4B000000#32))
    (Pipeline.withArrays_arr spec0 launch0.win.arr_inj c _ _ 4)

/-- The run, read: the result buffer at `out`, the four arguments unchanged. -/
theorem run : θ_run defs (onTc (τ := τ) (main (F := Ideal))) ⟨m, fun _ => 0, ρ⟩ fun r => ∀ c : Dev nD,
      r.2.mem ((c.tc : Thread nD τ).loc main_v51) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v51 (Pipeline.mem_restRefs_of main_v51 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Sum

end
-- ==== Proof.KernelWindows.lean ====
/-
  The four arrays the kernel's region reads, and its blocks of them. The host lines before the region leave
  in the four windows' arrays the [65536, 128] reshapes of: the intensities gathered at each pair's first
  point, those gathered at its second point, the labels and the weights — the two gathers being the very
  host operations the reference applies. Grid point `t`'s block of such an array is its rows
  `2048·t … 2048·t + 2047`, so entry `(r, l)` of the block is position `(2048·t + r)·128 + l` of the flat
  array.
-/
import proofs.«124489_j15994458211239_1_alg».proof.Proof.Gen.KernelIdeal.Frame
import proofs.«124489_j15994458211239_1_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx Idealize.ShloMosaic.StableHlo

namespace Cert.KernelIdeal.Windows

open Cert.KernelIdeal Cert.KernelIdeal.Gen

variable {F : FTy → Type} [FloatOps F]

/-! ## The host lines before the region, over any contents of the arguments -/

set_option maxHeartbeats 4000000 in
/-- Window 0's array after the host lines: the first gather of the reference, reshaped to [65536, 128]. -/
theorem ops_arr0 (W : Valuation τ sig (Elt F)) :
    after (hostOps0 (F := F)) W (main_v45 : DevRef τ sig)
      = shapeCast S65536x128 (Cert.ReferenceIdeal.Read.val_main_v30 (F := F) (W (main_arg0 : DevRef τ sig)) (W (main_arg1 : DevRef τ sig)))
          shapeCasts_S8388608_S65536x128 := by
  after_results_simp
  rfl

set_option maxHeartbeats 4000000 in
/-- Window 1's array: the second gather of the reference, reshaped. -/
theorem ops_arr1 (W : Valuation τ sig (Elt F)) :
    after (hostOps0 (F := F)) W (main_v46 : DevRef τ sig)
      = shapeCast S65536x128 (Cert.ReferenceIdeal.Read.val_main_v44 (F := F) (W (main_arg0 : DevRef τ sig)) (W (main_arg1 : DevRef τ sig)))
          shapeCasts_S8388608_S65536x128 := by
  after_results_simp
  rfl

set_option maxHeartbeats 4000000 in
/-- Window 2's array: the labels, reshaped. -/
theorem ops_arr2 (W : Valuation τ sig (Elt F)) :
    after (hostOps0 (F := F)) W (main_v47 : DevRef τ sig)
      = shapeCast S65536x128 (W (main_arg2 : DevRef τ sig)) shapeCasts_S8388608_S65536x128 := by
  after_results_simp
  rfl

set_option maxHeartbeats 4000000 in
/-- Window 3's array: the weights, reshaped. -/
theorem ops_arr3 (W : Valuation τ sig (Elt F)) :
    after (hostOps0 (F := F)) W (main_v48 : DevRef τ sig)
      = shapeCast S65536x128 (W (main_arg3 : DevRef τ sig)) shapeCasts_S8388608_S65536x128 := by
  after_results_simp
  rfl

/-! ## The arrays as the region finds them -/

variable (m : (ℓ : Loc nD τ sig) → Buf (Elt F) ℓ)

/-- The one stretch of host lines before the region. -/
theorem flat_ops : List.flatten [hostOps0 (F := F)] = hostOps0 := by
  simp only [List.flatten_cons, List.flatten_nil, List.append_nil]

/-- What the region finds in a buffer: the host lines' fold over the launch contents. -/
theorem V_eq (c : Dev nD) (b : Ref sig .tc) :
    V m c b = after (hostOps0 (F := F)) (fun b => m (c, b)) (Proc.devRef .tc b) := by
  unfold V V0
  rw [flat_ops]

/-- The intensities gathered at each pair's first point, as the reference's own stage of the arguments. -/
abbrev gath1 (c : Dev nD) : S8388608.Idx → F .f32 :=
  Cert.ReferenceIdeal.Read.val_main_v30 (F := F) (m ((c.tc : Thread nD τ).loc main_arg0)) (m ((c.tc : Thread nD τ).loc main_arg1))

/-- Those gathered at its second point. -/
abbrev gath2 (c : Dev nD) : S8388608.Idx → F .f32 :=
  Cert.ReferenceIdeal.Read.val_main_v44 (F := F) (m ((c.tc : Thread nD τ).loc main_arg0)) (m ((c.tc : Thread nD τ).loc main_arg1))

theorem arr0 (c : Dev nD) : V m c main_v45 = shapeCast S65536x128 (gath1 m c) shapeCasts_S8388608_S65536x128 :=
  (V_eq m c main_v45).trans (ops_arr0 _)
theorem arr1 (c : Dev nD) : V m c main_v46 = shapeCast S65536x128 (gath2 m c) shapeCasts_S8388608_S65536x128 :=
  (V_eq m c main_v46).trans (ops_arr1 _)
theorem arr2 (c : Dev nD) :
    V m c main_v47 = shapeCast S65536x128 (m ((c.tc : Thread nD τ).loc main_arg2)) shapeCasts_S8388608_S65536x128 :=
  (V_eq m c main_v47).trans (ops_arr2 _)
theorem arr3 (c : Dev nD) :
    V m c main_v48 = shapeCast S65536x128 (m ((c.tc : Thread nD τ).loc main_arg3)) shapeCasts_S8388608_S65536x128 :=
  (V_eq m c main_v48).trans (ops_arr3 _)

/-! ## A block's entry is a position of the flat array -/

/-- Position `(2048·t + r)·128 + l` of the flat array. -/
def flatPos (t : Fin cfg0.N) (r : Fin 2048) (l : Fin 128) : Fin 8388608 :=
  ⟨(t.val * 2048 + r.val) * 128 + l.val, by
    have hN : cfg0.N = 32 := N_0
    have := t.isLt; have := r.isLt; have := l.isLt; omega⟩

/-- Entry `(R, l)` of a flat array reshaped to [65536, 128] is its position `128·R + l`. -/
theorem reshape_apply {α : Type} (x : S8388608.Idx → α) (R : Fin 65536) (l : Fin 128) (n : Fin 8388608)
    (hn : n.val = R.val * 128 + l.val) :
    shapeCast S65536x128 x shapeCasts_S8388608_S65536x128 (ix2 R l) = x (ix1 n) :=
  shapeCast_apply x shapeCasts_S8388608_S65536x128 (ix2 R l) (ix1 n) (by
    rw [Shape.rowMajor_val_one, Shape.rowMajor_val_two]; exact hn)

/-- Every input window's block index at point `t` is `(t, 0)`. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- Row `2048·t + r` of a [65536, 128] array. -/
def rowOf (t : Fin cfg0.N) (r : Fin 2048) : Fin 65536 :=
  ⟨t.val * 2048 + r.val, by have hN : cfg0.N = 32 := N_0; have := t.isLt; have := r.isLt; omega⟩

/-- Window 0's block at point `t` reads rows `2048·t …` of its array. -/
theorem blk0_apply (c : Dev nD) (t : Fin cfg0.N) (r : Fin 2048) (l : Fin 128) :
    (iblk m c 0 t : Vec F S2048x128 .f32) (ix2 r l) = (V m c main_v45 : S65536x128.Idx → F .f32) (ix2 (rowOf t r) l) := by
  unfold iblk
  rw [View.read_apply]
  show V m c main_v45 _ = V m c main_v45 _
  refine congrArg (V m c main_v45) (funext fun a => Fin.ext ?_)
  match a with
  | ⟨0, _⟩ => show win0_0.index t 0 * 2048 + 1 * r.val = t.val * 2048 + r.val; rw [(idx0 t).1]; omega
  | ⟨1, _⟩ => show win0_0.index t 1 * 128 + 1 * l.val = l.val; rw [(idx0 t).2]; omega

/-- Window 1's block likewise. -/
theorem blk1_apply (c : Dev nD) (t : Fin cfg0.N) (r : Fin 2048) (l : Fin 128) :
    (iblk m c 1 t : Vec F S2048x128 .f32) (ix2 r l) = (V m c main_v46 : S65536x128.Idx → F .f32) (ix2 (rowOf t r) l) := by
  unfold iblk
  rw [View.read_apply]
  show V m c main_v46 _ = V m c main_v46 _
  refine congrArg (V m c main_v46) (funext fun a => Fin.ext ?_)
  match a with
  | ⟨0, _⟩ => show win0_1.index t 0 * 2048 + 1 * r.val = t.val * 2048 + r.val; rw [(idx1 t).1]; omega
  | ⟨1, _⟩ => show win0_1.index t 1 * 128 + 1 * l.val = l.val; rw [(idx1 t).2]; omega

/-- Window 2's block (the labels). -/
theorem blk2_apply (c : Dev nD) (t : Fin cfg0.N) (r : Fin 2048) (l : Fin 128) :
    (iblk m c 2 t : Vec F S2048x128 .i32) (ix2 r l) = (V m c main_v47 : S65536x128.Idx → Elt F .i32) (ix2 (rowOf t r) l) := by
  unfold iblk
  rw [View.read_apply]
  show V m c main_v47 _ = V m c main_v47 _
  refine congrArg (V m c main_v47) (funext fun a => Fin.ext ?_)
  match a with
  | ⟨0, _⟩ => show win0_2.index t 0 * 2048 + 1 * r.val = t.val * 2048 + r.val; rw [(idx2 t).1]; omega
  | ⟨1, _⟩ => show win0_2.index t 1 * 128 + 1 * l.val = l.val; rw [(idx2 t).2]; omega

/-- Window 3's block (the weights). -/
theorem blk3_apply (c : Dev nD) (t : Fin cfg0.N) (r : Fin 2048) (l : Fin 128) :
    (iblk m c 3 t : Vec F S2048x128 .f32) (ix2 r l) = (V m c main_v48 : S65536x128.Idx → F .f32) (ix2 (rowOf t r) l) := by
  unfold iblk
  rw [View.read_apply]
  show V m c main_v48 _ = V m c main_v48 _
  refine congrArg (V m c main_v48) (funext fun a => Fin.ext ?_)
  match a with
  | ⟨0, _⟩ => show win0_3.index t 0 * 2048 + 1 * r.val = t.val * 2048 + r.val; rw [(idx3 t).1]; omega
  | ⟨1, _⟩ => show win0_3.index t 1 * 128 + 1 * l.val = l.val; rw [(idx3 t).2]; omega

/-! ## Entry `(r, l)` of point `t`'s blocks: the flat arrays at position `(2048·t + r)·128 + l` -/

theorem entry0 (c : Dev nD) (t : Fin cfg0.N) (r : Fin 2048) (l : Fin 128) :
    (iblk m c 0 t : Vec F S2048x128 .f32) (ix2 r l) = gath1 m c (ix1 (flatPos t r l)) := by
  rw [blk0_apply, arr0]
  exact reshape_apply _ (rowOf t r) l (flatPos t r l) rfl

theorem entry1 (c : Dev nD) (t : Fin cfg0.N) (r : Fin 2048) (l : Fin 128) :
    (iblk m c 1 t : Vec F S2048x128 .f32) (ix2 r l) = gath2 m c (ix1 (flatPos t r l)) := by
  rw [blk1_apply, arr1]
  exact reshape_apply _ (rowOf t r) l (flatPos t r l) rfl

theorem entry2 (c : Dev nD) (t : Fin cfg0.N) (r : Fin 2048) (l : Fin 128) :
    (iblk m c 2 t : Vec F S2048x128 .i32) (ix2 r l) = (m ((c.tc : Thread nD τ).loc main_arg2) : S8388608.Idx → Elt F .i32) (ix1 (flatPos t r l)) := by
  rw [blk2_apply, arr2]
  exact reshape_apply _ (rowOf t r) l (flatPos t r l) rfl

theorem entry3 (c : Dev nD) (t : Fin cfg0.N) (r : Fin 2048) (l : Fin 128) :
    (iblk m c 3 t : Vec F S2048x128 .f32) (ix2 r l) = (m ((c.tc : Thread nD τ).loc main_arg3) : S8388608.Idx → F .f32) (ix1 (flatPos t r l)) := by
  rw [blk3_apply, arr3]
  exact reshape_apply _ (rowOf t r) l (flatPos t r l) rfl

end Cert.KernelIdeal.Windows

end
-- ==== Proof.LibSumBlocks.lean ====
/-
  Regrouping a finite sum. A commutative monoid's sum over the positions `n < a·b·c` of a flat array is the
  iterated sum over blocks `t < a`, rows `r < b` of a block and lanes `l < c` of a row, the position of
  `(t, r, l)` being `(t·b + r)·c + l`: addition is commutative and associative, nothing else is used, so the
  law holds on the extended reals with their infinities. Also: a sum over the rank-1 index set of a flat
  array is the sum over its one coordinate.
-/
import Idealize.ShloMosaic.Lib.ValueIdx

open scoped BigOperators

namespace Cert.LibSumBlocks

open Idealize.ShloMosaic Idealize.ShloMosaic.ValueIdx

/-- Position `(t·b + r)·c + l` is inside `a·b·c`. -/
theorem pos_lt {a b c : Nat} (t : Fin a) (r : Fin b) (l : Fin c) : (t.val * b + r.val) * c + l.val < a * b * c := by
  have ht := t.isLt; have hr := r.isLt; have hl := l.isLt
  have h1 : t.val * b + r.val < a * b := by
    calc t.val * b + r.val < t.val * b + b := by omega
      _ = (t.val + 1) * b := by ring
      _ ≤ a * b := Nat.mul_le_mul_right b ht
  calc (t.val * b + r.val) * c + l.val < (t.val * b + r.val) * c + c := by omega
    _ = (t.val * b + r.val + 1) * c := by ring
    _ ≤ a * b * c := Nat.mul_le_mul_right c h1

/-- The position of lane `l` of row `r` of block `t`. -/
def pos {a b c : Nat} (t : Fin a) (r : Fin b) (l : Fin c) : Fin (a * b * c) := ⟨(t.val * b + r.val) * c + l.val, pos_lt t r l⟩

/-- Blocks, rows and lanes enumerate the positions once each: the iterated sum over `a` blocks of `b` rows of
    `c` lanes of a function of the position `(t·b + r)·c + l` is the flat sum over the `a·b·c` positions, in
    any commutative monoid. -/
theorem sum_blocks {M : Type*} [AddCommMonoid M] (a b c : Nat) (f : Fin (a * b * c) → M) :
    ∑ t : Fin a, ∑ r : Fin b, ∑ l : Fin c, f (pos t r l) = ∑ n : Fin (a * b * c), f n := by
  rw [← Equiv.sum_comp (finProdFinEquiv (m := a * b) (n := c)) f, Fintype.sum_prod_type,
    ← Equiv.sum_comp (finProdFinEquiv (m := a) (n := b)) (fun q : Fin (a * b) => ∑ l : Fin c, f (finProdFinEquiv (q, l))),
    Fintype.sum_prod_type]
  refine Finset.sum_congr rfl fun t _ => Finset.sum_congr rfl fun r _ => Finset.sum_congr rfl fun l _ => ?_
  refine congrArg f (Fin.ext ?_)
  show (t.val * b + r.val) * c + l.val = l.val + c * (r.val + b * t.val)
  ring

/-- A flat array's index set is its one coordinate's. -/
def idxEquiv1 {n : Nat} : (⟨1, ![n]⟩ : Shape).Idx ≃ Fin n where
  toFun i := i 0
  invFun := ix1
  left_inv i := (eq_ix1 i).symm
  right_inv _ := rfl

/-- So a sum over a rank-1 array's indices is the sum over its one coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibSumBlocks
-- ==== Proof.MeanLoss.lean ====
/-
  What both programs compute, as one function of the flat arrays: the weighted pair losses of the 8388608
  pairs summed from zero and divided by the pair count (the f32 word of 8388608), over the extended reals.
  `r1`, `r2` are the intensities gathered for each pair, `d` the labels, `w` the weights.
-/
import proofs.«124489_j15994458211239_1_alg».proof.Proof.PairLoss
import Idealize.ShloMosaic.Lib.ValueIdx

noncomputable section

open scoped BigOperators

namespace Cert.Hinge

open Idealize.ShloMosaic

/-- The total of the weighted pair losses, from the zero word. -/
def totalLoss (r1 r2 : (⟨1, ![8388608]⟩ : Shape).Idx → EReal) (d : (⟨1, ![8388608]⟩ : Shape).Idx → BitVec 32)
    (w : (⟨1, ![8388608]⟩ : Shape).Idx → EReal) : EReal :=
  Ideal.ofBits .f32 0x00000000#32 + ∑ j : (⟨1, ![8388608]⟩ : Shape).Idx, pairLoss (F := Ideal) (r1 j) (r2 j) (d j) (w j)

/-- The mean: the total over the pair count. -/
def meanLoss (r1 r2 : (⟨1, ![8388608]⟩ : Shape).Idx → EReal) (d : (⟨1, ![8388608]⟩ : Shape).Idx → BitVec 32)
    (w : (⟨1, ![8388608]⟩ : Shape).Idx → EReal) : (⟨0, ![]⟩ : Shape).Idx → EReal :=
  fun _ => Ideal.div (totalLoss r1 r2 d w) (Ideal.ofBits .f32 0x4B000000#32)

end Cert.Hinge

end
-- ==== Proof.KernelTotal.lean ====
/-
  The kernel's result is the mean pair loss of the flat arrays. Grid point `t`'s partial sum runs over the
  entries `(r, l)` of its blocks, which are the flat arrays at position `(2048·t + r)·128 + l`; the 32 points,
  2048 rows and 128 lanes enumerate the 8388608 positions once each, and addition of extended reals is
  commutative and associative, so the partial sums add up to the reference's one sum over all pairs.
-/
import proofs.«124489_j15994458211239_1_alg».proof.Proof.KernelValue
import proofs.«124489_j15994458211239_1_alg».proof.Proof.KernelWindows
import proofs.«124489_j15994458211239_1_alg».proof.Proof.LibSumBlocks
import proofs.«124489_j15994458211239_1_alg».proof.Proof.MeanLoss

noncomputable section

open scoped BigOperators
open Idealize.ShloMosaic Idealize.ShloMosaic.TcCoe Idealize.SL.Sem Idealize.ShloMosaic.ValueIdx

namespace Cert.KernelIdeal.Total

open Cert.KernelIdeal Cert.KernelIdeal.Gen Cert.Hinge Cert.KernelIdeal.Body Cert.KernelIdeal.Windows Cert.KernelIdeal.Sum
open Cert.LibSumBlocks

/-- At the extents met here: 32 blocks of 2048 rows of 128 lanes are the 8388608 positions. -/
theorem sum_blocks_flat {M : Type*} [AddCommMonoid M] (f : Fin 8388608 → M) :
    ∑ t : Fin 32, ∑ r : Fin 2048, ∑ l : Fin 128,
        f ⟨(t.val * 2048 + r.val) * 128 + l.val, by have := t.isLt; have := r.isLt; have := l.isLt; omega⟩
      = ∑ n : Fin 8388608, f n :=
  sum_blocks 32 2048 128 f

variable (m : (ℓ : Loc nD τ sig) → Buf (Elt Ideal) ℓ)

/-- The pair loss at an index of the flat arrays. -/
def lossAt (c : Dev nD) (j : S8388608.Idx) : EReal :=
  pairLoss (F := Ideal) (gath1 m c j) (gath2 m c j)
    ((m ((c.tc : Thread nD τ).loc main_arg2) : S8388608.Idx → BitVec 32) j)
    ((m ((c.tc : Thread nD τ).loc main_arg3) : S8388608.Idx → EReal) j)

/-- A grid point's partial sum runs over its positions of the flat arrays. -/
theorem part_eq (c : Dev nD) (k : ℕ) (h : k < cfg0.N) :
    part m c k = ∑ r : Fin 2048, ∑ l : Fin 128, lossAt m c (ix1 (flatPos ⟨k, h⟩ r l)) := by
  unfold part
  rw [dif_pos h]
  unfold blockLoss
  refine Finset.sum_congr rfl fun r _ => Finset.sum_congr rfl fun l _ => ?_
  rw [entry0 m c ⟨k, h⟩ r l, entry1 m c ⟨k, h⟩ r l, entry2 m c ⟨k, h⟩ r l, entry3 m c ⟨k, h⟩ r l]
  rfl

/-- All the partial sums together are the sum over all pairs. -/
theorem total (c : Dev nD) : ∑ k ∈ Finset.range 32, part m c k = ∑ j : S8388608.Idx, lossAt m c j := by
  have hN : cfg0.N = 32 := N_0
  rw [Finset.sum_range, sum_idx1, ← sum_blocks_flat (fun n => lossAt m c (ix1 n))]
  refine Finset.sum_congr rfl fun s _ => ?_
  rw [part_eq m c s.val (lt_of_lt_of_eq s.isLt hN.symm)]
  rfl

/-- The kernel's result is the mean pair loss of the gathered intensities, the labels and the weights. -/
theorem out_eq (c : Dev nD) :
    Sum.out m c = meanLoss (gath1 m c) (gath2 m c) (m ((c.tc : Thread nD τ).loc main_arg2)) (m ((c.tc : Thread nD τ).loc main_arg3)) := by
  funext i
  show Ideal.div (Ideal.ofBits .f32 0x00000000#32 + ∑ k ∈ Finset.range 32, part m c k) (Ideal.ofBits .f32 0x4B000000#32) = _
  rw [total]
  rfl

end Cert.KernelIdeal.Total

end
-- ==== Proof.RefValue.lean ====
/-
  The reference, read: its result is the mean pair loss of the flat arrays. Every line of the reference
  between the two gathers and the sum acts entry by entry, and at entry `j` composes to the pair loss of the
  gathered intensities, the label and the weight at `j`; the sum is the host's total from zero; the last
  line divides by the pair count.
-/
import proofs.«124489_j15994458211239_1_alg».proof.Proof.Gen.ReferenceIdeal.Read
import proofs.«124489_j15994458211239_1_alg».proof.Proof.MeanLoss

noncomputable section

open scoped BigOperators
open Idealize.ShloMosaic Idealize.ShloMosaic.TcCoe Idealize.SL.Sem

namespace Cert.ReferenceIdeal.Mean

open Cert.ReferenceIdeal Cert.ReferenceIdeal.Read Cert.Hinge

/-- The reference's weighted loss at pair `j` is the pair loss of its gathered intensities, label and weight. -/
theorem weighted_apply (x0 : (⟨S3x512x512, .f32⟩ : BufTy).Contents (Elt Ideal)) (x1 : (⟨S8388608x4, .i32⟩ : BufTy).Contents (Elt Ideal))
    (x2 : (⟨S8388608, .i32⟩ : BufTy).Contents (Elt Ideal)) (x3 : (⟨S8388608, .f32⟩ : BufTy).Contents (Elt Ideal)) (j : S8388608.Idx) :
    val_main_v89 (F := Ideal) x0 x1 x2 x3 j
      = pairLoss (F := Ideal) (val_main_v30 (F := Ideal) x0 x1 j) (val_main_v44 (F := Ideal) x0 x1 j) (x2 j) (x3 j) := rfl

/-- The reference's result is the mean pair loss. -/
theorem result_eq (x0 : (⟨S3x512x512, .f32⟩ : BufTy).Contents (Elt Ideal)) (x1 : (⟨S8388608x4, .i32⟩ : BufTy).Contents (Elt Ideal))
    (x2 : (⟨S8388608, .i32⟩ : BufTy).Contents (Elt Ideal)) (x3 : (⟨S8388608, .f32⟩ : BufTy).Contents (Elt Ideal)) :
    val_main_v91 (F := Ideal) x0 x1 x2 x3
      = meanLoss (val_main_v30 (F := Ideal) x0 x1) (val_main_v44 (F := Ideal) x0 x1) x2 x3 := by
  funext i
  rw [val_main_v91_apply, val_main_v90_apply]
  unfold meanLoss totalLoss
  simp only [weighted_apply]
  rfl

end Cert.ReferenceIdeal.Mean

end
-- ==== Proof.lean ====
/-
  The weighted ratio-hinge loss over 8388608 comparison pairs: the kernel against its jnp reference.

  Both programs first form, on the host and by the same operations, the luminance table and the two gathered
  intensity arrays `r1`, `r2` (one entry per pair); the reference then computes every pair's loss
  `w · per(r1, r2, d)` on the flat arrays, sums all 8388608 of them from zero and divides by the pair count.
  The kernel views the four flat arrays as [65536, 128], walks 32 blocks of 2048 rows, and at each block adds to
  a [1, 1] accumulator (zeroed at the first block) the block's losses summed over lanes and then over rows;
  after the last block the accumulator is written back, viewed as a scalar and divided by the same pair count.

  Per pair the two programs apply the same operations to the same f32 words, so the loss of a pair is one
  function of its four inputs (Proof/PairLoss.lean); the kernel's accumulator after the last block is zero
  plus the 32 partial sums (Proof/KernelBody.lean, Proof/KernelValue.lean); each block entry is a position of
  the flat arrays (Proof/KernelWindows.lean), blocks × rows × lanes enumerate the positions once, and sums of
  extended reals regroup freely (Proof/LibSumBlocks.lean), so the partial sums are the reference's one sum
  (Proof/KernelTotal.lean, Proof/RefValue.lean). No finiteness of the inputs is used: only commutativity and
  associativity of addition separate the two sides. The three frames are the generated ones (the reference's:
  its generated run with the result dropped); the ideal pass rewrote nothing, so `preserves` is `True`.
-/
import proofs.«124489_j15994458211239_1_alg».proof.Defs
import proofs.«124489_j15994458211239_1_alg».proof.Proof.Gen.Kernel
import proofs.«124489_j15994458211239_1_alg».proof.Proof.Gen.Kernel.Skeleton
import proofs.«124489_j15994458211239_1_alg».proof.Proof.Gen.Kernel.Launch
import proofs.«124489_j15994458211239_1_alg».proof.Proof.Gen.Kernel.Points
import proofs.«124489_j15994458211239_1_alg».proof.Proof.Gen.Kernel.Frame
import proofs.«124489_j15994458211239_1_alg».proof.Proof.Gen.KernelIdeal
import proofs.«124489_j15994458211239_1_alg».proof.Proof.Gen.KernelIdeal.Skeleton
import proofs.«124489_j15994458211239_1_alg».proof.Proof.Gen.KernelIdeal.Launch
import proofs.«124489_j15994458211239_1_alg».proof.Proof.Gen.KernelIdeal.Points
import proofs.«124489_j15994458211239_1_alg».proof.Proof.Gen.KernelIdeal.Frame
import proofs.«124489_j15994458211239_1_alg».proof.Proof.Gen.ReferenceIdeal
import proofs.«124489_j15994458211239_1_alg».proof.Proof.Gen.Pre_finite_inputs
import proofs.«124489_j15994458211239_1_alg».proof.Proof.Gen.ReferenceIdeal.Run
import proofs.«124489_j15994458211239_1_alg».proof.Proof.Gen.ReferenceIdeal.Read
import proofs.«124489_j15994458211239_1_alg».proof.Proof.KernelTotal
import proofs.«124489_j15994458211239_1_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals both programs end at the mean pair loss of arguments that agree. -/
theorem algebraic : Cert.algebraic_KernelIdeal_ReferenceIdeal := by
  intro m ρ m' ρ' _ hagree
  refine ⟨fun c => Cert.KernelIdeal.Sum.out m c, Cert.KernelIdeal.Sum.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Sum.out m c
  rw [Cert.ReferenceIdeal.Read.val_main_v91_eq, Cert.ReferenceIdeal.Mean.result_eq, Cert.KernelIdeal.Total.out_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
